-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x512x2 : Shape := ⟨3, ![4096, 512, 2]⟩
abbrev S2x256x8 : Shape := ⟨3, ![2, 256, 8]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bitsLt_bf16_f32 : FTy.bits .bf16 < FTy.bits .f32
  bcast_S_S2x256x8 : S_.BroadcastsInDim S2x256x8 (![] : Fin 0 → Fin S2x256x8.rank)
  reducesTo_S2x256x8_S_d0_1_2 : S2x256x8.ReducesTo [0, 1, 2] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x512x2 32) (main_arg2 : FVec F S2x256x8 .bf16) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S2x256x8 .f32 := (extf .f32 · bitsLt_bf16_f32) main_arg2
  let main_v5 : FVec F S2x256x8 .f32 := Host.absf main_v4
  let main_cst_0 : FVec F S_ .f32 := constant S_ .f32 0x7F800000#32
  let main_v6 : FVec F S2x256x8 .f32 := broadcastInDim S2x256x8 ![] bcast_S_S2x256x8 main_cst_0
  let main_v7 : IVec S2x256x8 1 := cmpf .olt main_v5 main_v6
  let main_c_1 : IVec S_ 1 := constantI S_ 1 1#1
  let main_v8 : IVec S_ 1 := (fun x v => Host.reduce IntOp.andi x v reducesTo_S2x256x8_S_d0_1_2 h_S_) main_v7 main_c_1
  let main_v9 : IVec S_ 1 := andi main_v3 main_v8
  let main_v10 : FVec F S4096 .f32 := Host.absf main_arg3
  let main_cst_2 : FVec F S_ .f32 := constant S_ .f32 0x7F800000#32
  let main_v11 : FVec F S4096 .f32 := broadcastInDim S4096 ![] bcast_S_S4096 main_cst_2
  let main_v12 : IVec S4096 1 := cmpf .olt main_v10 main_v11
  let main_c_3 : IVec S_ 1 := constantI S_ 1 1#1
  let main_v13 : IVec S_ 1 := (fun x v => Host.reduce IntOp.andi x v reducesTo_S4096_S_d0 h_S_) main_v12 main_c_3
  let main_v14 : IVec S_ 1 := andi main_v9 main_v13
  main_v14
-- ==== Kernel.lean ====
abbrev S4x2048x4096 : Shape := ⟨3, ![4, 2048, 4096]⟩
abbrev S4096x512x2 : Shape := ⟨3, ![4096, 512, 2]⟩
abbrev S2x256x8 : Shape := ⟨3, ![2, 256, 8]⟩
abbrev S4096 : Shape := ⟨1, ![4096]⟩
abbrev S8192x4096 : Shape := ⟨2, ![8192, 4096]⟩
abbrev S1x256x8 : Shape := ⟨3, ![1, 256, 8]⟩
abbrev S256x8 : Shape := ⟨2, ![256, 8]⟩
abbrev S4096x512x1 : Shape := ⟨3, ![4096, 512, 1]⟩
abbrev S4096x512 : Shape := ⟨2, ![4096, 512]⟩
abbrev S_ : Shape := ⟨0, ![]⟩
abbrev S4096x512x8 : Shape := ⟨3, ![4096, 512, 8]⟩
abbrev S4096x4096 : Shape := ⟨2, ![4096, 4096]⟩
abbrev S1x4096 : Shape := ⟨2, ![1, 4096]⟩
abbrev S1024x512 : Shape := ⟨2, ![1024, 512]⟩
abbrev S1x512 : Shape := ⟨2, ![1, 512]⟩
abbrev S2048x512 : Shape := ⟨2, ![2048, 512]⟩
abbrev S1024x2048 : Shape := ⟨2, ![1024, 2048]⟩

abbrev nBuf : Space → Nat
  | .hbm => 41
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x512x2, .i32⟩
  | .hbm, ⟨2, _⟩ => ⟨S2x256x8, .bf16⟩
  | .hbm, ⟨3, _⟩ => ⟨S4096, .f32⟩
  | .hbm, ⟨4, _⟩ => ⟨S8192x4096, .f32⟩
  | .hbm, ⟨5, _⟩ => ⟨S2x256x8, .f32⟩
  | .hbm, ⟨6, _⟩ => ⟨S1x256x8, .f32⟩
  | .hbm, ⟨7, _⟩ => ⟨S256x8, .f32⟩
  | .hbm, ⟨8, _⟩ => ⟨S4096x512x1, .i32⟩
  | .hbm, ⟨9, _⟩ => ⟨S4096x512, .i32⟩
  | .hbm, ⟨10, _⟩ => ⟨S_, .i32⟩
  | .hbm, ⟨11, _⟩ => ⟨S4096x512, .i32⟩
  | .hbm, ⟨12, _⟩ => ⟨S4096x512, .i1⟩
  | .hbm, ⟨13, _⟩ => ⟨S_, .i32⟩
  | .hbm, ⟨14, _⟩ => ⟨S4096x512, .i32⟩
  | .hbm, ⟨15, _⟩ => ⟨S4096x512, .i32⟩
  | .hbm, ⟨16, _⟩ => ⟨S4096x512, .i32⟩
  | .hbm, ⟨17, _⟩ => ⟨S4096x512x1, .i32⟩
  | .hbm, ⟨18, _⟩ => ⟨S4096x512x8, .f32⟩
  | .hbm, ⟨19, _⟩ => ⟨S_, .f32⟩
  | .hbm, ⟨20, _⟩ => ⟨S4096x512x8, .f32⟩
  | .hbm, ⟨21, _⟩ => ⟨S4096x512x8, .f32⟩
  | .hbm, ⟨22, _⟩ => ⟨S1x256x8, .f32⟩
  | .hbm, ⟨23, _⟩ => ⟨S256x8, .f32⟩
  | .hbm, ⟨24, _⟩ => ⟨S4096x512x1, .i32⟩
  | .hbm, ⟨25, _⟩ => ⟨S4096x512, .i32⟩
  | .hbm, ⟨26, _⟩ => ⟨S_, .i32⟩
  | .hbm, ⟨27, _⟩ => ⟨S4096x512, .i32⟩
  | .hbm, ⟨28, _⟩ => ⟨S4096x512, .i1⟩
  | .hbm, ⟨29, _⟩ => ⟨S_, .i32⟩
  | .hbm, ⟨30, _⟩ => ⟨S4096x512, .i32⟩
  | .hbm, ⟨31, _⟩ => ⟨S4096x512, .i32⟩
  | .hbm, ⟨32, _⟩ => ⟨S4096x512, .i32⟩
  | .hbm, ⟨33, _⟩ => ⟨S4096x512x1, .i32⟩
  | .hbm, ⟨34, _⟩ => ⟨S4096x512x8, .f32⟩
  | .hbm, ⟨35, _⟩ => ⟨S4096x512x8, .f32⟩
  | .hbm, ⟨36, _⟩ => ⟨S4096x4096, .f32⟩
  | .hbm, ⟨37, _⟩ => ⟨S4096x4096, .bf16⟩
  | .hbm, ⟨38, _⟩ => ⟨S1x4096, .f32⟩
  | .hbm, ⟨39, _⟩ => ⟨S8192x4096, .f32⟩
  | .hbm, ⟨40, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  slices_S2x256x8_S1x256x8_0_0_0 : S2x256x8.Slices ![0, 0, 0] S1x256x8
  shapeCasts_S1x256x8_S256x8 : S1x256x8.ShapeCasts S256x8
  slices_S4096x512x2_S4096x512x1_0_0_0 : S4096x512x2.Slices ![0, 0, 0] S4096x512x1
  shapeCasts_S4096x512x1_S4096x512 : S4096x512x1.ShapeCasts S4096x512
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S_S4096x512x8 : S_.BroadcastsInDim S4096x512x8 (![] : Fin 0 → Fin S4096x512x8.rank)
  slices_S2x256x8_S1x256x8_1_0_0 : S2x256x8.Slices ![1, 0, 0] S1x256x8
  slices_S4096x512x2_S4096x512x1_0_0_1 : S4096x512x2.Slices ![0, 0, 1] S4096x512x1
  shapeCasts_S4096x512x8_S4096x4096 : S4096x512x8.ShapeCasts S4096x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S8192x4096_S4x2048x4096 : S8192x4096.ShapeCasts S4x2048x4096
  gather_S256x8_S4096x512x1_S4096x512x8_2_0_n_n_0_2_18_wf : GatherDims.WF S256x8 S4096x512x1 S4096x512x8 [2] [0] [] [0] [] 2 ![1, 8]
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .f32 = 32 ∨ (Rect.block (s := S1x4096) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S4096x4096.size a
  hwx0_2 : ∀ i : grid0.Coords, EltTy.bits .bf16 = 32 ∨ (Rect.block (s := S4096x4096) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def gather_S256x8_S4096x512x1_S4096x512x8_2_0_n_n_0_2_18 : GatherDims S256x8 S4096x512x1 S4096x512x8 where
  offsetDims := [2]
  collapsedSliceDims := [0]
  operandBatchingDims := []
  startIndicesBatchingDims := []
  startIndexMap := [0]
  indexVectorDim := 2
  sliceSizes := ![1, 8]
  wf := gather_S256x8_S4096x512x1_S4096x512x8_2_0_n_n_0_2_18_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x512x2 : Shape := ⟨3, ![4096, 512, 2]⟩
abbrev S2x256x8 : Shape := ⟨3, ![2, 256, 8]⟩
abbrev S4096 : Shape := ⟨1, ![4096]⟩
abbrev S1x1x4096 : Shape := ⟨3, ![1, 1, 4096]⟩
abbrev S8192x4096 : Shape := ⟨2, ![8192, 4096]⟩
abbrev S1x256x8 : Shape := ⟨3, ![1, 256, 8]⟩
abbrev S256x8 : Shape := ⟨2, ![256, 8]⟩
abbrev S4096x512x1 : Shape := ⟨3, ![4096, 512, 1]⟩
abbrev S4096x512 : Shape := ⟨2, ![4096, 512]⟩
abbrev S_ : Shape := ⟨0, ![]⟩
abbrev S4096x512x8 : Shape := ⟨3, ![4096, 512, 8]⟩
abbrev S4096x4096 : Shape := ⟨2, ![4096, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x512x2, .i32⟩
  | .hbm, ⟨2, _⟩ => ⟨S2x256x8, .bf16⟩
  | .hbm, ⟨3, _⟩ => ⟨S4096, .f32⟩
  | .hbm, ⟨4, _⟩ => ⟨S1x1x4096, .f32⟩
  | .hbm, ⟨5, _⟩ => ⟨S4x2048x4096, .f32⟩
  | .hbm, ⟨6, _⟩ => ⟨S4x2048x4096, .f32⟩
  | .hbm, ⟨7, _⟩ => ⟨S8192x4096, .f32⟩
  | .hbm, ⟨8, _⟩ => ⟨S2x256x8, .f32⟩
  | .hbm, ⟨9, _⟩ => ⟨S1x256x8, .f32⟩
  | .hbm, ⟨10, _⟩ => ⟨S256x8, .f32⟩
  | .hbm, ⟨11, _⟩ => ⟨S4096x512x1, .i32⟩
  | .hbm, ⟨12, _⟩ => ⟨S4096x512, .i32⟩
  | .hbm, ⟨13, _⟩ => ⟨S_, .i32⟩
  | .hbm, ⟨14, _⟩ => ⟨S4096x512, .i32⟩
  | .hbm, ⟨15, _⟩ => ⟨S4096x512, .i1⟩
  | .hbm, ⟨16, _⟩ => ⟨S_, .i32⟩
  | .hbm, ⟨17, _⟩ => ⟨S4096x512, .i32⟩
  | .hbm, ⟨18, _⟩ => ⟨S4096x512, .i32⟩
  | .hbm, ⟨19, _⟩ => ⟨S4096x512, .i32⟩
  | .hbm, ⟨20, _⟩ => ⟨S4096x512x1, .i32⟩
  | .hbm, ⟨21, _⟩ => ⟨S4096x512x8, .f32⟩
  | .hbm, ⟨22, _⟩ => ⟨S_, .f32⟩
  | .hbm, ⟨23, _⟩ => ⟨S4096x512x8, .f32⟩
  | .hbm, ⟨24, _⟩ => ⟨S4096x512x8, .f32⟩
  | .hbm, ⟨25, _⟩ => ⟨S1x256x8, .f32⟩
  | .hbm, ⟨26, _⟩ => ⟨S256x8, .f32⟩
  | .hbm, ⟨27, _⟩ => ⟨S4096x512x1, .i32⟩
  | .hbm, ⟨28, _⟩ => ⟨S4096x512, .i32⟩
  | .hbm, ⟨29, _⟩ => ⟨S_, .i32⟩
  | .hbm, ⟨30, _⟩ => ⟨S4096x512, .i32⟩
  | .hbm, ⟨31, _⟩ => ⟨S4096x512, .i1⟩
  | .hbm, ⟨32, _⟩ => ⟨S_, .i32⟩
  | .hbm, ⟨33, _⟩ => ⟨S4096x512, .i32⟩
  | .hbm, ⟨34, _⟩ => ⟨S4096x512, .i32⟩
  | .hbm, ⟨35, _⟩ => ⟨S4096x512, .i32⟩
  | .hbm, ⟨36, _⟩ => ⟨S4096x512x1, .i32⟩
  | .hbm, ⟨37, _⟩ => ⟨S4096x512x8, .f32⟩
  | .hbm, ⟨38, _⟩ => ⟨S4096x512x8, .f32⟩
  | .hbm, ⟨39, _⟩ => ⟨S4096x4096, .f32⟩
  | .hbm, ⟨40, _⟩ => ⟨S8192x4096, .f32⟩
  | .hbm, ⟨41, _⟩ => ⟨S4x2048x4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4x2048x4096, .f32⟩
  | .hbm, ⟨46, _⟩ => ⟨S4x2048x4096, .f32⟩
  | .hbm, ⟨47, _⟩ => ⟨S_, .f32⟩
  | .hbm, ⟨48, _⟩ => ⟨S4x2048x4096, .f32⟩
  | .hbm, ⟨49, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  shapeCasts_S4x2048x4096_S8192x4096 : S4x2048x4096.ShapeCasts S8192x4096
  bitsLt_bf16_f32 : FTy.bits .bf16 < FTy.bits .f32
  slices_S2x256x8_S1x256x8_0_0_0 : S2x256x8.Slices ![0, 0, 0] S1x256x8
  shapeCasts_S1x256x8_S256x8 : S1x256x8.ShapeCasts S256x8
  slices_S4096x512x2_S4096x512x1_0_0_0 : S4096x512x2.Slices ![0, 0, 0] S4096x512x1
  shapeCasts_S4096x512x1_S4096x512 : S4096x512x1.ShapeCasts S4096x512
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S_S4096x512x8 : S_.BroadcastsInDim S4096x512x8 (![] : Fin 0 → Fin S4096x512x8.rank)
  slices_S2x256x8_S1x256x8_1_0_0 : S2x256x8.Slices ![1, 0, 0] S1x256x8
  slices_S4096x512x2_S4096x512x1_0_0_1 : S4096x512x2.Slices ![0, 0, 1] S4096x512x1
  shapeCasts_S4096x512x8_S4096x4096 : S4096x512x8.ShapeCasts S4096x4096
  shapeCasts_S8192x4096_S4x2048x4096 : S8192x4096.ShapeCasts S4x2048x4096
  bcast_S_S4x2048x4096 : S_.BroadcastsInDim S4x2048x4096 (![] : Fin 0 → Fin S4x2048x4096.rank)
  gather_S256x8_S4096x512x1_S4096x512x8_2_0_n_n_0_2_18_wf : GatherDims.WF S256x8 S4096x512x1 S4096x512x8 [2] [0] [] [0] [] 2 ![1, 8]
  dot_S8192x4096_S4096x4096_S8192x4096_1_1_0_0_n_n_wf : DotDims.WF S8192x4096 S4096x4096 S8192x4096 [1] [1] [0] [0] [] []

variable [Facts₀]

def gather_S256x8_S4096x512x1_S4096x512x8_2_0_n_n_0_2_18 : GatherDims S256x8 S4096x512x1 S4096x512x8 where
  offsetDims := [2]
  collapsedSliceDims := [0]
  operandBatchingDims := []
  startIndicesBatchingDims := []
  startIndexMap := [0]
  indexVectorDim := 2
  sliceSizes := ![1, 8]
  wf := gather_S256x8_S4096x512x1_S4096x512x8_2_0_n_n_0_2_18_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid step leaves behind, read back as values.

  The kernel body runs in one of three ways, chosen by the step's position k along the contraction axis:
  at k = 0 it first stores a zero block into the accumulator, at every k it adds the product of the
  current x block (scaled by its row of scales) and the current weight block to the accumulator, and at
  k = 7 it also stores the clipped accumulator into the output block. Each store covers its whole
  buffer, so what a buffer holds afterwards is the payload of the last store into it. The accumulator
  read back after the zero store is the zero block itself.
-/
import proofs.«167404_j11579231830501_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The literal zero offsets are the constant zero function. -/
theorem hz : (![0, 0] : Fin 2 → Nat) = fun _ => 0 := funext fun a => by fin_cases a <;> rfl

/-- After a middle step of the contraction the accumulator holds the step's payload over the blocks and the accumulator as found. -/
theorem scratch_B (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x512 .f32) (x1 : Vec F S1x512 .f32) (x2 : Vec F S2048x512 .bf16) (xs0 : Vec F S1024x2048 .f32) :
    sout0_B_0 c i arg3 harg3 arg4 harg4 arg5 harg5 arg6 harg6 arg7 harg7 hc0 hc1 x0 x1 x2 xs0 = k0_pay2 x0 x1 xs0 x2 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg5.read_unread, harg7.read_unread,
    View.ld_unit_zero (S := S1024x512) hz, View.ld_unit_zero (S := S1x512) hz, View.ld_unit_zero (S := S2048x512) hz,
    View.ld_unit_zero (S := S1024x2048) hz]

/-- After the first step of a contraction the accumulator, stored with zeros and read back, holds the step's payload over the zero block. -/
theorem scratch_A (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x512 .f32) (x1 : Vec F S1x512 .f32) (x2 : Vec F S2048x512 .bf16) :
    sout0_A_0 c i arg3 harg3 arg4 harg4 arg5 harg5 arg6 harg6 arg7 harg7 hc0 hc1 x0 x1 x2 = k0_pay2 x0 x1 (k0_pay1 (F := F)) x2 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, harg3.read_unread, harg4.read_unread, harg5.read_unread, harg7.read_unread,
    View.ld_unit_zero (S := S1024x512) hz, View.ld_unit_zero (S := S1x512) hz, View.ld_unit_zero (S := S2048x512) hz,
    View.ld_unit_zero (S := S1024x2048) hz]

/-- After the last step of a contraction the accumulator holds the step's payload, as after a middle step. -/
theorem scratch_C (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .f32) (x1 : Vec F S1x512 .f32) (x2 : Vec F S2048x512 .bf16) (xs0 : Vec F S1024x2048 .f32) :
    sout0_C_0 c i arg3 harg3 arg4 harg4 arg5 harg5 arg6 harg6 arg7 harg7 hc0 hc1 x0 x1 x2 xs0 = k0_pay2 x0 x1 xs0 x2 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S1024x512) hz, View.ld_unit_zero (S := S1x512) hz, View.ld_unit_zero (S := S2048x512) hz,
    View.ld_unit_zero (S := S1024x2048) hz]

/-- After the last step the output block is the clip of the step's accumulator. -/
theorem out_C (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .f32) (x1 : Vec F S1x512 .f32) (x2 : Vec F S2048x512 .bf16) (xs0 : Vec F S1024x2048 .f32) :
    out0_C_3 c i arg3 harg3 arg4 harg4 arg5 harg5 arg6 harg6 arg7 harg7 hc0 hc1 x0 x1 x2 xs0 = k0_pay3 (k0_pay2 x0 x1 xs0 x2) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x2048) hz, View.readCov_unit_zero (S := S1024x2048) _ hz]
  simp only [View.readAt_eq_ld, harg3.read_unread, harg4.read_unread, harg5.read_unread, harg7.read_unread,
    View.ld_unit_zero (S := S1024x512) hz, View.ld_unit_zero (S := S1x512) hz, View.ld_unit_zero (S := S2048x512) hz,
    View.ld_unit_zero (S := S1024x2048) hz]

end Cert.KernelIdeal.Acc
end
-- ==== Proof.Payload.lean ====
/-
  The body's arithmetic read at an index, on the extended reals.

  The accumulator update of one step is acc + (x * s) W^T over the step's 512 columns: at (p, q) the
  accumulator's entry plus the sum over j of (x[p, j] * s[0, j]) * w[q, j]. Narrowing to bf16 is the identity
  on the extended reals, a matrix product into a zero accumulator is the plain sum of products, and the row of
  scales is broadcast over the rows of x. The final store is the accumulator clipped from below by -50 and
  then from above by 50, entry by entry; the first store is the zero block.
-/
import proofs.«167404_j11579231830501_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Acc

open Cert.KernelIdeal Cert.KernelIdeal.Gen

/-- The zero block is zero at every index. -/
theorem pay1_apply (y : S1024x2048.Idx) : k0_pay1 (F := Ideal) y = 0 := by
  unfold k0_pay1
  simp only [shapeCast_self]
  show Ideal.ofBits .f32 0x00000000#32 = 0
  exact Ideal.ofBits_zero_f32

/-- The left operand's index of the product at output (p, q) and contraction coordinate j is (p, j). -/
theorem lhs_idx (i : S1024x2048.Idx) (j : Fin 512) :
    dot_S1024x512_S2048x512_S1024x2048_1_1_0_0_n_n.lhsIdx i ((contrEquiv1 dot_S1024x512_S2048x512_S1024x2048_1_1_0_0_n_n 512 rfl rfl).symm j) = ix2 (⟨(i 0).val, (i 0).isLt⟩ : Fin 1024) j := by
  have hk := contrEquiv1_symm_val dot_S1024x512_S2048x512_S1024x2048_1_1_0_0_n_n 512 rfl rfl j
  refine funext fun a => Fin.ext ?_
  match a with
  | ⟨0, _⟩ =>
    show (dot_S1024x512_S2048x512_S1024x2048_1_1_0_0_n_n.lhsIdx i _ 0).val = (i 0).val
    unfold DotDims.lhsIdx
    rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
    rfl
  | ⟨1, _⟩ => exact (dot_S1024x512_S2048x512_S1024x2048_1_1_0_0_n_n.lhsIdx_val_of_single rfl i _).trans hk

/-- The right operand's index of the product at output (p, q) and contraction coordinate j is (q, j). -/
theorem rhs_idx (i : S1024x2048.Idx) (j : Fin 512) :
    dot_S1024x512_S2048x512_S1024x2048_1_1_0_0_n_n.rhsIdx i ((contrEquiv1 dot_S1024x512_S2048x512_S1024x2048_1_1_0_0_n_n 512 rfl rfl).symm j) = ix2 (⟨(i 1).val, (i 1).isLt⟩ : Fin 2048) j := by
  have hk := contrEquiv1_symm_val dot_S1024x512_S2048x512_S1024x2048_1_1_0_0_n_n 512 rfl rfl j
  refine funext fun a => Fin.ext ?_
  match a with
  | ⟨0, _⟩ =>
    show (dot_S1024x512_S2048x512_S1024x2048_1_1_0_0_n_n.rhsIdx i _ 0).val = (i 1).val
    unfold DotDims.rhsIdx
    rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
    rfl
  | ⟨1, _⟩ => exact (dot_S1024x512_S2048x512_S1024x2048_1_1_0_0_n_n.rhsIdx_val_of_single rfl i _).trans hk

/-- The 512 products of one step at (p, q): the scaled x row p against the weight row q. -/
def stepSum (x0 : FVec Ideal S1024x512 .f32) (x1 : FVec Ideal S1x512 .f32) (w : FVec Ideal S2048x512 .bf16)
    (p : Fin 1024) (q : Fin 2048) : EReal :=
  ∑ j : Fin 512, (x0 (ix2 p j) * x1 (ix2 (0 : Fin 1) j)) * w (ix2 q j)

/-- One accumulation step at (p, q): the accumulator's entry plus the step's 512 products. -/
theorem pay2_apply (x0 : FVec Ideal S1024x512 .f32) (x1 : FVec Ideal S1x512 .f32) (acc : FVec Ideal S1024x2048 .f32)
    (w : FVec Ideal S2048x512 .bf16) (p : Fin 1024) (q : Fin 2048) :
    k0_pay2 (F := Ideal) x0 x1 acc w (ix2 p q)
      = acc (ix2 p q) + stepSum x0 x1 w p q := by
  unfold k0_pay2 stepSum
  simp only [shapeCast_self]
  rw [addf_apply]
  refine congrArg (acc (ix2 p q) + ·) ?_
  show FloatOps.matmul dot_S1024x512_S2048x512_S1024x2048_1_1_0_0_n_n none _ w (constant S1024x2048 .f32 0x00000000#32) (ix2 p q) = _
  rw [Ideal.matmul_constant_zero_apply, ← Equiv.sum_comp (contrEquiv1 dot_S1024x512_S2048x512_S1024x2048_1_1_0_0_n_n 512 rfl rfl).symm]
  refine Finset.sum_congr rfl fun j _ => ?_
  rw [lhs_idx, rhs_idx]
  show (truncf .bf16 (mulf x0 (broadcastTo S1024x512 x1 broadcasts_S1x512_S1024x512)) bitsLt_bf16_f32 : FVec Ideal S1024x512 .bf16) (ix2 p j) * w (ix2 q j) = _
  rw [truncf_apply, mulf_apply, broadcastTo_1b_ab_apply]

/-- The final store at an index: the accumulator's entry clipped to [-50, 50]. -/
theorem pay3_apply (v : FVec Ideal S1024x2048 .f32) (y : S1024x2048.Idx) :
    k0_pay3 (F := Ideal) v y
      = min (Ideal.ofBits .f32 0x42480000#32) (max (Ideal.ofBits .f32 0xC2480000#32) (v y)) := by
  unfold k0_pay3
  rfl

end Cert.KernelIdeal.Acc

end
-- ==== Proof.LibBlockedSum.lean ====
/-
  Blocked and padded finite sums.

  A sum over an index range of length n * b can be taken block by block: an outer sum over the n blocks and
  an inner sum over the b positions of a block, the position (j, k) standing for the index j * b + k. A sum
  over a range whose tail holds only zeros equals the sum over the range without the tail. Together: a blocked
  sum over a zero-padded range equals the plain sum over the unpadded range. A running total that starts from
  the first block and adds one block per step equals the sum of the blocks seen so far.

  Everything is stated over an arbitrary additive commutative monoid: only commutativity, associativity and the
  neutrality of zero are used, so no finiteness or distributivity hypothesis appears. The last section states
  the instance on the extended reals with a product of two zero-padded factors.
-/
import Mathlib.Algebra.BigOperators.Fin
import Mathlib.Algebra.BigOperators.Intervals
import Mathlib.Data.EReal.Operations

namespace Cert.LibBlockedSum

open Finset

variable {M : Type*} [AddCommMonoid M]

/-- A sum over n * b consecutive indices equals the sum over n blocks of the sums over the b positions
    of each block, the position k of block j being the index j * b + k. -/
theorem sum_blocks (n b : ℕ) (f : ℕ → M) :
    ∑ j : Fin n, ∑ k : Fin b, f (j.val * b + k.val) = ∑ i : Fin (n * b), f i.val := by
  rw [← Fintype.sum_prod_type']
  refine Fintype.sum_equiv finProdFinEquiv _ _ ?_
  rintro ⟨j, k⟩
  have e : (finProdFinEquiv (j, k)).val = j.val * b + k.val := by
    show k.val + b * j.val = j.val * b + k.val
    rw [Nat.mul_comm, Nat.add_comm]
  rw [e]

/-- A sum over N indices whose terms vanish from index K on equals the sum over the first K indices. -/
theorem sum_padded (K N : ℕ) (h : K ≤ N) (f : ℕ → M) (hz : ∀ i, K ≤ i → i < N → f i = 0) :
    ∑ i : Fin N, f i.val = ∑ i : Fin K, f i.val := by
  rw [Fin.sum_univ_eq_sum_range f N, Fin.sum_univ_eq_sum_range f K]
  symm
  refine Finset.sum_subset (Finset.range_subset_range.2 h) ?_
  intro i hiN hiK
  exact hz i (Nat.le_of_not_lt fun hlt => hiK (Finset.mem_range.2 hlt)) (Finset.mem_range.1 hiN)

/-- A blocked sum (n blocks of b positions) over a range whose terms vanish from index K on equals the
    plain sum over the first K indices. -/
theorem blocked_padded (n b K : ℕ) (h : K ≤ n * b) (f : ℕ → M) (hz : ∀ i, K ≤ i → i < n * b → f i = 0) :
    ∑ j : Fin n, ∑ k : Fin b, f (j.val * b + k.val) = ∑ i : Fin K, f i.val :=
  (sum_blocks n b f).trans (sum_padded K (n * b) h f hz)

/-- A running total that starts at the first block and adds the next block at every step equals, after step
    j, the sum of the blocks 0, …, j. -/
theorem acc_eq_sum (acc blk : ℕ → M) (h0 : acc 0 = blk 0) (hs : ∀ j, acc (j + 1) = acc j + blk (j + 1))
    (j : ℕ) : acc j = ∑ i : Fin (j + 1), blk i.val := by
  induction j with
  | zero => rw [h0, Fin.sum_univ_one]; rfl
  | succ j ih => rw [hs, ih, Fin.sum_univ_castSucc (fun i : Fin (j + 1 + 1) => blk i.val)]; rfl

/-- The same with the first step written as an addition to a zero total. -/
theorem acc_eq_sum_of_zero_add (acc blk : ℕ → M) (h0 : acc 0 = 0 + blk 0)
    (hs : ∀ j, acc (j + 1) = acc j + blk (j + 1)) (j : ℕ) : acc j = ∑ i : Fin (j + 1), blk i.val :=
  acc_eq_sum acc blk (h0.trans (zero_add _)) hs j

/-- The running total after step j, each block being itself a sum over b positions of a function whose
    terms vanish from index K on, with (j + 1) * b indices covered so far: the plain sum over the first K
    indices. -/
theorem acc_blocked_padded (b K : ℕ) (f : ℕ → M) (acc : ℕ → M)
    (h0 : acc 0 = ∑ k : Fin b, f (0 * b + k.val))
    (hs : ∀ j, acc (j + 1) = acc j + ∑ k : Fin b, f ((j + 1) * b + k.val))
    (j : ℕ) (h : K ≤ (j + 1) * b) (hz : ∀ i, K ≤ i → i < (j + 1) * b → f i = 0) :
    acc j = ∑ i : Fin K, f i.val := by
  rw [acc_eq_sum acc (fun j => ∑ k : Fin b, f (j * b + k.val)) h0 hs j]
  exact blocked_padded (j + 1) b K h f hz

section EReal

/-- The product of two factors that are zero from index K on is zero from index K on (on the extended
    reals 0 * 0 = 0; nothing is assumed about the factors below K). -/
theorem padded_mul_eq_zero (K : ℕ) (v c : ℕ → EReal) (i : ℕ) (h : K ≤ i) :
    (if i < K then v i else 0) * (if i < K then c i else 0) = 0 := by
  rw [if_neg (Nat.not_lt.2 h), if_neg (Nat.not_lt.2 h), mul_zero]

/-- The contraction of a zero-padded row with a zero-padded column, taken in n blocks of b, equals the
    contraction of the unpadded row and column: general extents. -/
theorem blocked_padded_dot (n b K : ℕ) (h : K ≤ n * b) (v c : ℕ → EReal) :
    ∑ j : Fin n, ∑ k : Fin b,
        (if j.val * b + k.val < K then v (j.val * b + k.val) else 0) *
          (if j.val * b + k.val < K then c (j.val * b + k.val) else 0) =
      ∑ f : Fin K, v f.val * c f.val := by
  rw [blocked_padded n b K h (fun i => (if i < K then v i else 0) * (if i < K then c i else 0))
    (fun i hK _ => padded_mul_eq_zero K v c i hK)]
  refine Finset.sum_congr rfl fun i _ => ?_
  rw [if_pos i.isLt, if_pos i.isLt]

/-- The instance with 40 blocks of 512 positions covering 20480 indices, of which the first 20000 carry data
    and the last 480 are zero padding. -/
theorem blocked_padded_dot_40_512 (v c : ℕ → EReal) :
    ∑ j : Fin 40, ∑ k : Fin 512,
        (if j.val * 512 + k.val < 20000 then v (j.val * 512 + k.val) else 0) *
          (if j.val * 512 + k.val < 20000 then c (j.val * 512 + k.val) else 0) =
      ∑ f : Fin 20000, v f.val * c f.val :=
  blocked_padded_dot 40 512 20000 (by norm_num) v c

/-- The same instance for padded functions given by name. -/
theorem blocked_padded_dot_40_512' (v c vp cp : ℕ → EReal)
    (hv : ∀ i, vp i = if i < 20000 then v i else 0) (hc : ∀ i, cp i = if i < 20000 then c i else 0) :
    ∑ j : Fin 40, ∑ k : Fin 512, vp (j.val * 512 + k.val) * cp (j.val * 512 + k.val) =
      ∑ f : Fin 20000, v f.val * c f.val := by
  rw [← blocked_padded_dot_40_512 v c]
  refine Finset.sum_congr rfl fun j _ => Finset.sum_congr rfl fun k _ => ?_
  rw [hv, hc]

end EReal

end Cert.LibBlockedSum
-- ==== Proof.Spec.lean ====
/-
  The function both programs compute, and the arithmetic that joins their two arrangements of it.

  For an activation array x of shape [4, 2048, 4096], a scale vector s of length 4096 and a weight matrix
  W of shape [4096, 4096], the result at (b, r, o) is the contraction over k of (x[b, r, k] * s[k]) * W[o, k],
  clipped to the interval [-50, 50]. Arrays are read through extensions to natural-number coordinates (zero
  outside the array), so that flattened rows R = b * 2048 + r and blocked columns k = kb * 512 + j are plain
  arithmetic on coordinates. The only law used between the two arrangements is that a sum over 8 blocks of
  512 consecutive terms is the sum over all 4096 terms, which holds in any additive commutative monoid: no
  finiteness of the entries is needed.
-/
import Idealize.ShloMosaic.PureOps.Ideal
import Idealize.ShloMosaic.PureOps.Ideal.Laws
import Idealize.ShloMosaic.Lib.ValueIdx
import proofs.«167404_j11579231830501_2_alg».proof.Proof.LibBlockedSum

noncomputable section

namespace Cert.AQSpec

open Idealize.ShloMosaic Idealize.ShloMosaic.ValueIdx

/-- A vector read at a natural-number coordinate, zero outside its extent. -/
def ext1 {A : Nat} (f : (⟨1, ![A]⟩ : Shape).Idx → EReal) (a : ℕ) : EReal :=
  if h : a < A then f (ix1 ⟨a, h⟩) else 0

/-- A matrix read at natural-number coordinates, zero outside its extents. -/
def ext2 {A B : Nat} (f : (⟨2, ![A, B]⟩ : Shape).Idx → EReal) (a b : ℕ) : EReal :=
  if h : a < A ∧ b < B then f (ix2 ⟨a, h.1⟩ ⟨b, h.2⟩) else 0

/-- A rank-3 array read at natural-number coordinates, zero outside its extents. -/
def ext3 {A B C : Nat} (f : (⟨3, ![A, B, C]⟩ : Shape).Idx → EReal) (a b c : ℕ) : EReal :=
  if h : a < A ∧ b < B ∧ c < C then f (ix3 ⟨a, h.1⟩ ⟨b, h.2.1⟩ ⟨c, h.2.2⟩) else 0

/-- An entry of a vector is its extension at the entry's coordinate. -/
theorem ext1_of_eq {A : Nat} (f : (⟨1, ![A]⟩ : Shape).Idx → EReal) (i : (⟨1, ![A]⟩ : Shape).Idx) (a : ℕ)
    (ha : (i 0).val = a) : f i = ext1 f a := by
  subst ha
  unfold ext1
  have h0 : (i 0).val < A := (i 0).isLt
  rw [dif_pos h0]
  exact congrArg f (eq_ix1 i)

/-- An entry of a matrix is its extension at the entry's coordinates. -/
theorem ext2_of_eq {A B : Nat} (f : (⟨2, ![A, B]⟩ : Shape).Idx → EReal) (i : (⟨2, ![A, B]⟩ : Shape).Idx) (a b : ℕ)
    (ha : (i 0).val = a) (hb : (i 1).val = b) : f i = ext2 f a b := by
  subst ha hb
  unfold ext2
  have h0 : (i 0).val < A := (i 0).isLt
  have h1 : (i 1).val < B := (i 1).isLt
  rw [dif_pos ⟨h0, h1⟩]
  exact congrArg f (eq_ix2 i)

/-- An entry of a rank-3 array is its extension at the entry's coordinates. -/
theorem ext3_of_eq {A B C : Nat} (f : (⟨3, ![A, B, C]⟩ : Shape).Idx → EReal) (i : (⟨3, ![A, B, C]⟩ : Shape).Idx)
    (a b c : ℕ) (ha : (i 0).val = a) (hb : (i 1).val = b) (hc : (i 2).val = c) : f i = ext3 f a b c := by
  subst ha hb hc
  unfold ext3
  have h0 : (i 0).val < A := (i 0).isLt
  have h1 : (i 1).val < B := (i 1).isLt
  have h2 : (i 2).val < C := (i 2).isLt
  rw [dif_pos ⟨h0, h1, h2⟩]
  exact congrArg f (eq_ix3 i)

/-- The lower clip bound, -50. -/
def lo : EReal := Ideal.ofBits .f32 0xC2480000#32
/-- The upper clip bound, 50. -/
def hi : EReal := Ideal.ofBits .f32 0x42480000#32

/-- Clipping to [-50, 50]: first from below, then from above. -/
def clip (v : EReal) : EReal := min hi (max lo v)

/-- One term of the contraction for flattened row R and output column C: (x[R, k] * s[k]) * W[C, k]. -/
def term (X : ℕ → ℕ → EReal) (s : ℕ → EReal) (W : ℕ → ℕ → EReal) (R C k : ℕ) : EReal :=
  (X R k * s k) * W C k

/-- The whole contraction over the 4096 input features. -/
def dot (X : ℕ → ℕ → EReal) (s : ℕ → EReal) (W : ℕ → ℕ → EReal) (R C : ℕ) : EReal :=
  ∑ k : Fin 4096, term X s W R C k.val

/-- Block kb of the contraction: the 512 terms k = kb * 512 + j. -/
def blockDot (X : ℕ → ℕ → EReal) (s : ℕ → EReal) (W : ℕ → ℕ → EReal) (R C kb : ℕ) : EReal :=
  ∑ j : Fin 512, term X s W R C (kb * 512 + j.val)

/-- The eight blocks together are the whole contraction. -/
theorem blocks_eq_dot (X : ℕ → ℕ → EReal) (s : ℕ → EReal) (W : ℕ → ℕ → EReal) (R C : ℕ) :
    ∑ kb ∈ Finset.range 8, blockDot X s W R C kb = dot X s W R C := by
  rw [← Fin.sum_univ_eq_sum_range (fun kb => blockDot X s W R C kb) 8]
  exact Cert.LibBlockedSum.sum_blocks 8 512 (fun k => term X s W R C k)

/-- The flattened activations: row R = b * 2048 + r of the [8192, 4096] view is row (b, r) of x. -/
def flatX (x : (⟨3, ![4, 2048, 4096]⟩ : Shape).Idx → EReal) (R k : ℕ) : EReal :=
  ext3 x (R / 2048) (R % 2048) k

/-- The result array: at (b, r, o) the clipped contraction of row b * 2048 + r with weight row o. -/
def G (x : (⟨3, ![4, 2048, 4096]⟩ : Shape).Idx → EReal) (s : (⟨1, ![4096]⟩ : Shape).Idx → EReal)
    (W : (⟨2, ![4096, 4096]⟩ : Shape).Idx → EReal) : (⟨3, ![4, 2048, 4096]⟩ : Shape).Idx → EReal :=
  fun i => clip (dot (flatX x) (ext1 s) (ext2 W) ((i 0).val * 2048 + (i 1).val) (i 2).val)

end Cert.AQSpec

end
-- ==== Proof.Blocks.lean ====
/-
  The input blocks of a grid step, read at coordinates of the whole arrays.

  The grid has 8 x 2 x 8 points; point t has row-block t / 16, column-block t / 8 % 2 and contraction step
  t % 8. At point t the x window holds rows (t / 16) * 1024 + p and columns (t % 8) * 512 + j of the flattened
  activations, the scale window holds columns (t % 8) * 512 + j of the one row of scales, and the weight
  window holds rows (t / 8 % 2) * 2048 + q and columns (t % 8) * 512 + j of the weights. A block's coordinate
  in its array is always block index * block size + the coordinate inside the block. The output window at
  point t is rows (t / 16) * 1024 + p and columns (t / 8 % 2) * 2048 + q of the result.
-/
import proofs.«167404_j11579231830501_2_alg».proof.Proof.Gen.KernelIdeal.Frame
import proofs.«167404_j11579231830501_2_alg».proof.Proof.Spec
import proofs.«167404_j11579231830501_2_alg».proof.Proof.Payload
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.AQSpec

variable (m : (ℓ : Loc nD τ sig) → Buf (Elt Ideal) ℓ)

/-- The windows' block indices at grid point t, decided over the 128 points. -/
theorem idx_facts : ∀ t : Fin cfg0.N,
    win0_0.index t (0 : Fin 2) = t.val / 16 ∧ win0_0.index t (1 : Fin 2) = t.val % 8
    ∧ win0_1.index t (0 : Fin 2) = 0 ∧ win0_1.index t (1 : Fin 2) = t.val % 8
    ∧ win0_2.index t (0 : Fin 2) = t.val / 8 % 2 ∧ win0_2.index t (1 : Fin 2) = t.val % 8
    ∧ win0_3.index t (0 : Fin 2) = t.val / 16 ∧ win0_3.index t (1 : Fin 2) = t.val / 8 % 2 :=
  (by decide +kernel : ∀ t : Fin grid0.N, _)

/-- The flattened activations as the region finds them, at natural-number coordinates. -/
def Xk (c : Dev nD) : ℕ → ℕ → EReal := ext2 (V m c main_v0 : S8192x4096.Idx → EReal)
/-- The row of scales as the region finds it. -/
def Sk (c : Dev nD) : ℕ → EReal := fun k => ext2 (V m c main_v29 : S1x4096.Idx → EReal) 0 k
/-- The weights as the region finds them. -/
def Wk (c : Dev nD) : ℕ → ℕ → EReal := ext2 (V m c main_v28 : S4096x4096.Idx → EReal)

/-- The x block of point t at (p, j). -/
theorem iblk0_apply (c : Dev nD) (t : Fin cfg0.N) (p : Fin 1024) (j : Fin 512) :
    (iblk m c 0 t : Vec Ideal S1024x512 .f32) (ix2 p j) = Xk m c (t.val / 16 * 1024 + p.val) (t.val % 8 * 512 + j.val) := by
  obtain ⟨e0, e1, -⟩ := idx_facts t
  unfold iblk Xk
  rw [View.read_apply]
  refine ext2_of_eq (V m c main_v0 : S8192x4096.Idx → EReal) _ _ _ ?_ ?_
  · show win0_0.index t (0 : Fin 2) * 1024 + 1 * p.val = _
    rw [e0]; omega
  · show win0_0.index t (1 : Fin 2) * 512 + 1 * j.val = _
    rw [e1]; omega

/-- The scale block of point t at (0, j). -/
theorem iblk1_apply (c : Dev nD) (t : Fin cfg0.N) (j : Fin 512) :
    (iblk m c 1 t : Vec Ideal S1x512 .f32) (ix2 (0 : Fin 1) j) = Sk m c (t.val % 8 * 512 + j.val) := by
  obtain ⟨-, -, e0, e1, -⟩ := idx_facts t
  unfold iblk Sk
  rw [View.read_apply]
  refine ext2_of_eq (V m c main_v29 : S1x4096.Idx → EReal) _ _ _ ?_ ?_
  · show win0_1.index t (0 : Fin 2) * 1 + 1 * 0 = _
    rw [e0]
  · show win0_1.index t (1 : Fin 2) * 512 + 1 * j.val = _
    rw [e1]; omega

/-- The weight block of point t at (q, j). -/
theorem iblk2_apply (c : Dev nD) (t : Fin cfg0.N) (q : Fin 2048) (j : Fin 512) :
    (iblk m c 2 t : Vec Ideal S2048x512 .bf16) (ix2 q j) = Wk m c (t.val / 8 % 2 * 2048 + q.val) (t.val % 8 * 512 + j.val) := by
  obtain ⟨-, -, -, -, e0, e1, -⟩ := idx_facts t
  unfold iblk Wk
  rw [View.read_apply]
  refine ext2_of_eq (V m c main_v28 : S4096x4096.Idx → EReal) _ _ _ ?_ ?_
  · show win0_2.index t (0 : Fin 2) * 2048 + 1 * q.val = _
    rw [e0]; omega
  · show win0_2.index t (1 : Fin 2) * 512 + 1 * j.val = _
    rw [e1]; omega

/-- The 512 products of point t at (p, q) are block t % 8 of the contraction of flattened row
    (t / 16) * 1024 + p with weight row (t / 8 % 2) * 2048 + q. -/
theorem step_sum (c : Dev nD) (t : Fin cfg0.N) (p : Fin 1024) (q : Fin 2048) :
    stepSum (iblk m c 0 t) (iblk m c 1 t) (iblk m c 2 t) p q
      = blockDot (Xk m c) (Sk m c) (Wk m c) (t.val / 16 * 1024 + p.val) (t.val / 8 % 2 * 2048 + q.val) (t.val % 8) := by
  unfold stepSum blockDot
  refine Finset.sum_congr rfl fun j _ => ?_
  rw [iblk0_apply m c t p j, iblk1_apply m c t j, iblk2_apply m c t q j]
  rfl

end Cert.KernelIdeal.Acc

end
-- ==== Proof.Accumulate.lean ====
/-
  The accumulator after each grid step is the partial contraction.

  Grid point n has row-block n / 16, column-block n / 8 % 2 and contraction step n % 8, and the points of one
  (row-block, column-block) pair are visited consecutively, step 0 to step 7. At step 0 the accumulator is
  zeroed and block 0 is added; at every later step block n % 8 is added to what the point before left. So
  after point n the accumulator at (p, q) is the sum of blocks 0, …, n % 8 of the contraction of flattened row
  (n / 16) * 1024 + p with weight row (n / 8 % 2) * 2048 + q: by induction on n, never by enumerating the grid.
  At step 7 the output block is that sum, all eight blocks, clipped.
-/
import proofs.«167404_j11579231830501_2_alg».proof.Proof.Pieces
import proofs.«167404_j11579231830501_2_alg».proof.Proof.Payload
import proofs.«167404_j11579231830501_2_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.AQSpec

variable (m : (ℓ : Loc nD τ sig) → Buf (Elt Ideal) ℓ)

/-- The accumulator after point n, at (p, q): blocks 0, …, n % 8 of the contraction. -/
theorem acc_eq (c : Dev nD) : ∀ (n : ℕ) (hn : n < cfg0.N) (p : Fin 1024) (q : Fin 2048),
    (outsAt0 m c n hn).2 (ix2 p q)
      = ∑ kb ∈ Finset.range (n % 8 + 1),
          blockDot (Xk m c) (Sk m c) (Wk m c) (n / 16 * 1024 + p.val) (n / 8 % 2 * 2048 + q.val) kb
  | 0, hn, p, q => by
    rw [outsAt0_A m c ⟨0, hn⟩ rfl (by show ¬(0 % 8 = 7); omega)]
    dsimp only
    rw [scratch_A]
    refine (pay2_apply (iblk m c 0 ⟨0, hn⟩) (iblk m c 1 ⟨0, hn⟩) (k0_pay1 (F := Ideal)) (iblk m c 2 ⟨0, hn⟩) p q).trans ?_
    rw [pay1_apply, zero_add, step_sum m c ⟨0, hn⟩ p q]
    exact (Finset.sum_range_one _).symm
  | n + 1, hn, p, q => by
    have hN : n + 1 < 128 := lt_of_lt_of_eq hn N_0
    by_cases h0 : (n + 1) % 8 = 0
    · have h1 : ¬(n + 1) % 8 = 7 := by omega
      rw [outsAt0_A m c ⟨n + 1, hn⟩ h0 h1]
      dsimp only
      rw [scratch_A]
      refine (pay2_apply (iblk m c 0 ⟨n + 1, hn⟩) (iblk m c 1 ⟨n + 1, hn⟩) (k0_pay1 (F := Ideal)) (iblk m c 2 ⟨n + 1, hn⟩) p q).trans ?_
      rw [pay1_apply, zero_add, step_sum m c ⟨n + 1, hn⟩ p q]
      dsimp only
      rw [h0]
      exact (Finset.sum_range_one _).symm
    · have IH := acc_eq c n (Nat.lt_of_succ_lt hn) p q
      have e1 : (n + 1) % 8 = n % 8 + 1 := by omega
      have e2 : (n + 1) / 16 = n / 16 := by omega
      have e3 : (n + 1) / 8 % 2 = n / 8 % 2 := by omega
      by_cases h1 : (n + 1) % 8 = 7
      · rw [outsAt0_C m c ⟨n + 1, hn⟩ h0 h1]
        dsimp only
        rw [scratch_C]
        refine (pay2_apply (iblk m c 0 ⟨n + 1, hn⟩) (iblk m c 1 ⟨n + 1, hn⟩) (outsAt0 m c n (Nat.lt_of_succ_lt hn)).2 (iblk m c 2 ⟨n + 1, hn⟩) p q).trans ?_
        rw [IH, step_sum m c ⟨n + 1, hn⟩ p q]
        dsimp only
        rw [e1, e2, e3]
        exact (Finset.sum_range_succ _ _).symm
      · rw [outsAt0_B m c ⟨n + 1, hn⟩ h0 h1]
        dsimp only
        rw [scratch_B]
        refine (pay2_apply (iblk m c 0 ⟨n + 1, hn⟩) (iblk m c 1 ⟨n + 1, hn⟩) (outsAt0 m c n (Nat.lt_of_succ_lt hn)).2 (iblk m c 2 ⟨n + 1, hn⟩) p q).trans ?_
        rw [IH, step_sum m c ⟨n + 1, hn⟩ p q]
        dsimp only
        rw [e1, e2, e3]
        exact (Finset.sum_range_succ _ _).symm

/-- The output block after a last step (n % 8 = 7), at (p, q): the whole contraction, clipped. -/
theorem out_eq (c : Dev nD) (n : ℕ) (hn : n < cfg0.N) (h7 : n % 8 = 7) (p : Fin 1024) (q : Fin 2048) :
    (outsAt0 m c n hn).1 (ix2 p q)
      = clip (dot (Xk m c) (Sk m c) (Wk m c) (n / 16 * 1024 + p.val) (n / 8 % 2 * 2048 + q.val)) := by
  have hN : n < 128 := lt_of_lt_of_eq hn N_0
  obtain ⟨n', rfl⟩ : ∃ n', n = n' + 1 := ⟨n - 1, by omega⟩
  have h0 : ¬(n' + 1) % 8 = 0 := by omega
  have IH := acc_eq m c n' (Nat.lt_of_succ_lt hn) p q
  have e1 : (n' + 1) % 8 = n' % 8 + 1 := by omega
  have e2 : (n' + 1) / 16 = n' / 16 := by omega
  have e3 : (n' + 1) / 8 % 2 = n' / 8 % 2 := by omega
  rw [outsAt0_C m c ⟨n' + 1, hn⟩ h0 h7]
  dsimp only
  rw [out_C]
  refine (pay3_apply _ (ix2 p q)).trans ?_
  unfold clip
  refine congrArg (fun v => min hi (max lo v)) ?_
  refine (pay2_apply (iblk m c 0 ⟨n' + 1, hn⟩) (iblk m c 1 ⟨n' + 1, hn⟩) (outsAt0 m c n' (Nat.lt_of_succ_lt hn)).2 (iblk m c 2 ⟨n' + 1, hn⟩) p q).trans ?_
  rw [IH, step_sum m c ⟨n' + 1, hn⟩ p q, ← blocks_eq_dot]
  dsimp only
  have e7 : n' % 8 + 1 = 7 := by omega
  rw [← e2, ← e3, e1, e7]
  exact (Finset.sum_range_succ _ 7).symm

end Cert.KernelIdeal.Acc

end
-- ==== Proof.Final.lean ====
/-
  The result matrix after the region.

  The output window is written back exactly at the last contraction step of each (row-block, column-block)
  pair, and what is written there is the clipped whole contraction for the block's rows and columns. The
  sixteen written blocks of 1024 x 2048 tile the 8192 x 4096 result, so the result matrix ends holding, at
  (R, C), the clipped contraction of flattened row R with weight row C.
-/
import proofs.«167404_j11579231830501_2_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.AQSpec

variable (m : (ℓ : Loc nD τ sig) → Buf (Elt Ideal) ℓ) (ρ : Dev nD → PrngReg)

/-- The result matrix: at (R, C) the clipped contraction of flattened row R with weight row C. -/
def Gmat (c : Dev nD) : S8192x4096.Idx → EReal :=
  fun i => clip (dot (Xk m c) (Sk m c) (Wk m c) (i 0).val (i 1).val)

/-- Two blocks agree when they agree at every pair of coordinates. -/
theorem blk_ext (A B : S1024x2048.Idx → EReal) (h : ∀ (p : Fin 1024) (q : Fin 2048), A (ix2 p q) = B (ix2 p q)) : A = B :=
  funext fun y => by rw [eq_ix2 y]; exact h _ _

/-- What a writing point writes back is its block of the result matrix. -/
theorem flushed_eq (c : Dev nD) (t : Fin cfg0.N) (hf : (cfg0.win 3).flush t = true) :
    (dats m 0 c).flushed 3 t = ((cfg0.win 3).blk t).view.read (Elt Ideal) (Gmat m c) := by
  have h7 : t.val % 8 = 7 := (flush0_3 t).mp hf
  obtain ⟨-, -, -, -, -, -, e0, e1⟩ := idx_facts t
  show (cfg0.win 3).cut (grid0.coords t) ((dats m 0 c).after 3 t) = _
  rw [after0_3]
  refine blk_ext _ _ fun p q => ?_
  show (outsAt0 m c t.val t.isLt).1 (ix2 p q) = Gmat m c (((cfg0.win 3).blk t).view.emb (ix2 p q))
  rw [out_eq m c t.val t.isLt h7 p q]
  unfold Gmat
  have a0 : ((((cfg0.win 3).blk t).view.emb (ix2 p q)) 0).val = t.val / 16 * 1024 + p.val := by
    show win0_3.index t (0 : Fin 2) * 1024 + 1 * p.val = _
    rw [e0]; omega
  have a1 : ((((cfg0.win 3).blk t).view.emb (ix2 p q)) 1).val = t.val / 8 % 2 * 2048 + q.val := by
    show win0_3.index t (1 : Fin 2) * 2048 + 1 * q.val = _
    rw [e1]; omega
  dsimp only
  rw [a0, a1]

/-- An index of the result matrix is in point t's block iff each coordinate is in the block's range. -/
theorem mem_blk (t : Fin cfg0.N) (i : S8192x4096.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v30).slice (win0_3.rect t)).set ↔ _
  rw [View.set_slice_whole, Rect.mem_set_unit]
  exact Iff.rfl

/-- Every index of the result matrix lies in the block of a writing point: row-block R / 1024,
    column-block C / 2048, last contraction step. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  obtain ⟨n, hn_def⟩ : ∃ n, n = (i 0).val / 1024 * 16 + (i 1).val / 2048 * 8 + 7 := ⟨_, rfl⟩
  have hn : n < cfg0.N := by rw [hN]; omega
  refine ⟨⟨n, hn⟩, (flush0_3 _).mpr (by show n % 8 = 7; omega), ?_⟩
  rw [mem_blk]
  obtain ⟨-, -, -, -, -, -, e0, e1⟩ := idx_facts ⟨n, hn⟩
  have e0' : win0_3.index ⟨n, hn⟩ (0 : Fin 2) = n / 16 := e0
  have e1' : win0_3.index ⟨n, hn⟩ (1 : Fin 2) = n / 8 % 2 := e1
  intro a
  match a with
  | ⟨0, _⟩ =>
    show win0_3.index ⟨n, hn⟩ (0 : Fin 2) * 1024 ≤ (i 0).val ∧ (i 0).val < win0_3.index ⟨n, hn⟩ (0 : Fin 2) * 1024 + 1024
    rw [e0']; omega
  | ⟨1, _⟩ =>
    show win0_3.index ⟨n, hn⟩ (1 : Fin 2) * 2048 ≤ (i 1).val ∧ (i 1).val < win0_3.index ⟨n, hn⟩ (1 : Fin 2) * 2048 + 2048
    rw [e1']; omega

/-- The result matrix after the region. -/
theorem final (c : Dev nD) : (dats m 0 c).arrAt 3 cfg0.N = Gmat m c :=
  (dats m 0 c).arrAt_eq_of_cover 3 (Gmat m c) (flushed_eq m c) (cover)

end Cert.KernelIdeal.Acc

end
-- ==== Proof.HostIn.lean ====
/-
  What the region finds in its three input arrays.

  Before the region the program flattens the two leading axes of x, views the scale vector as one row, and
  dequantizes the weights: two table lookups into the two codebooks, added, reshaped to a matrix and narrowed
  to bf16. On the extended reals the narrowing is the identity, and the dequantization is operation for
  operation the one the reference performs, so the weights the region finds are the value of the reference's
  own weight stage at the same index and codebook arrays. That stage is never opened.
-/
import proofs.«167404_j11579231830501_2_alg».proof.Proof.Gen.KernelIdeal.Frame
import proofs.«167404_j11579231830501_2_alg».proof.Proof.Gen.ReferenceIdeal.Read
import proofs.«167404_j11579231830501_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Acc

open Cert.KernelIdeal Cert.KernelIdeal.Gen Cert.AQSpec

variable (m : (ℓ : Loc nD τ sig) → Buf (Elt Ideal) ℓ)

/-- The activations the region finds: x with its two leading axes flattened. -/
theorem V_v0 (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

/-- The scales the region finds: the scale vector as one row. -/
theorem V_v29 (c : Dev nD) : (V m c main_v29 : S1x4096.Idx → EReal)
    = shapeCast S1x4096 (m ((c : Thread nD τ).loc main_arg3)) shapeCasts_S4096_S1x4096 := by
  show StableHlo.after hostOps0 (fun b => m (c, b)) (Proc.devRef .tc main_v29) = _
  after_results
  rfl

set_option maxRecDepth 8192 in
set_option maxHeartbeats 2000000 in
/-- The weights the region finds are the reference's dequantized weights of the same arguments. -/
theorem V_v28 (c : Dev nD) : (V m c main_v28 : S4096x4096.Idx → EReal)
    = Cert.ReferenceIdeal.Read.val_main_v30 (F := Ideal) (m ((c : Thread nD τ).loc main_arg1)) (m ((c : Thread nD τ).loc main_arg2)) := by
  show StableHlo.after hostOps0 (fun b => m (c, b)) (Proc.devRef .tc main_v28) = _
  after_results_simp
  rfl

end Cert.KernelIdeal.Acc

end
-- ==== Proof.Tail.lean ====
/-
  The kernel program's result is the specification.

  After the region the program restores the two leading axes of the result matrix: entry (b, r, o) of the
  result is entry (b * 2048 + r, o) of the matrix. The matrix holds the clipped contraction of flattened
  row R with weight row C over the arrays the region found; the flattened row R of those activations is row
  (R / 2048, R % 2048) of x, the row of scales is the scale vector, and the weights are the dequantized
  weights. So the result is the specification of x, the scales and the dequantized weights, and the run of
  the program ends with the result array holding it and the four argument arrays unchanged.
-/
import proofs.«167404_j11579231830501_2_alg».proof.Proof.Final
import proofs.«167404_j11579231830501_2_alg».proof.Proof.HostIn
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.AQSpec

variable (m : (ℓ : Loc nD τ sig) → Buf (Elt Ideal) ℓ) (ρ : Dev nD → PrngReg)

/-- Flattened row R of the activations the region finds is row (R / 2048, R % 2048) of x. -/
theorem Xk_eq (c : Dev nD) (R k : ℕ) (hR : R < 8192) (hk : k < 4096) :
    Xk m c R k = flatX (m ((c : Thread nD τ).loc main_arg0)) R k := by
  unfold Xk flatX ext2
  rw [dif_pos ⟨hR, hk⟩, V_v0]
  refine (shapeCast_apply (m ((c : Thread nD τ).loc main_arg0)) shapeCasts_S4x2048x4096_S8192x4096 _
    (ix3 (⟨R / 2048, by omega⟩ : Fin 4) (⟨R % 2048, by omega⟩ : Fin 2048) (⟨k, hk⟩ : Fin 4096)) ?_).trans ?_
  · show (S4x2048x4096.rowMajor (ix3 (⟨R / 2048, by omega⟩ : Fin 4) (⟨R % 2048, by omega⟩ : Fin 2048) (⟨k, hk⟩ : Fin 4096))).val
      = (S8192x4096.rowMajor (ix2 (⟨R, hR⟩ : Fin 8192) (⟨k, hk⟩ : Fin 4096))).val
    rw [Shape.rowMajor_val_three, Shape.rowMajor_val_two]
    show (R / 2048 * 2048 + R % 2048) * 4096 + k = R * 4096 + k
    omega
  · exact ext3_of_eq (m ((c : Thread nD τ).loc main_arg0)) _ _ _ _ rfl rfl rfl

/-- The row of scales the region finds is the scale vector. -/
theorem Sk_eq (c : Dev nD) (k : ℕ) (hk : k < 4096) :
    Sk m c k = ext1 (m ((c : Thread nD τ).loc main_arg3)) k := by
  unfold Sk ext2
  rw [dif_pos ⟨Nat.one_pos, hk⟩, V_v29]
  refine (shapeCast_apply (m ((c : Thread nD τ).loc main_arg3)) shapeCasts_S4096_S1x4096 _
    (ix1 (⟨k, hk⟩ : Fin 4096)) ?_).trans ?_
  · show (S4096.rowMajor (ix1 (⟨k, hk⟩ : Fin 4096))).val
      = (S1x4096.rowMajor (ix2 (⟨0, Nat.one_pos⟩ : Fin 1) (⟨k, hk⟩ : Fin 4096))).val
    rw [Shape.rowMajor_val_one, Shape.rowMajor_val_two]
    show k = 0 * 4096 + k
    omega
  · exact ext1_of_eq (m ((c : Thread nD τ).loc main_arg3)) _ _ rfl

/-- The result array after the program's last reshape: the result matrix with its leading axes restored. -/
theorem result_eq (c : Dev nD) :
    Pipeline.afterTail₀ cfgs (dats m) 0 (V0 m) [hostOps1] c main_v31
      = shapeCast S4x2048x4096 (Gmat m c) shapeCasts_S8192x4096_S4x2048x4096 := by
  unfold Pipeline.afterTail₀
  show StableHlo.after hostOps1 _ (Proc.devRef .tc main_v31) = _
  after_results
  have e := (Pipeline.withArrays_arr spec0 launch0.win.arr_inj c (V0 m c) (fun w => (dats m 0 c).arrAt w (cfgs 0).N) 3).trans (final m c)
  exact congrArg (fun X : S8192x4096.Idx → EReal => shapeCast S4x2048x4096 X shapeCasts_S8192x4096_S4x2048x4096) e

/-- The result matrix with its leading axes restored is the specification of x, the scales and the weights
    the region finds. -/
theorem reshape_eq (c : Dev nD) :
    shapeCast S4x2048x4096 (Gmat m c) shapeCasts_S8192x4096_S4x2048x4096
      = G (m ((c : Thread nD τ).loc main_arg0)) (m ((c : Thread nD τ).loc main_arg3)) (V m c main_v28 : S4096x4096.Idx → EReal) := by
  funext i
  have hi0 : (i 0).val < 4 := (i 0).isLt
  have hi1 : (i 1).val < 2048 := (i 1).isLt
  have hi2 : (i 2).val < 4096 := (i 2).isLt
  have hR : (i 0).val * 2048 + (i 1).val < 8192 := by omega
  refine (shapeCast_apply (Gmat m c) shapeCasts_S8192x4096_S4x2048x4096 i
    (ix2 (⟨(i 0).val * 2048 + (i 1).val, hR⟩ : Fin 8192) (⟨(i 2).val, hi2⟩ : Fin 4096)) ?_).trans ?_
  · show (S8192x4096.rowMajor (ix2 (⟨(i 0).val * 2048 + (i 1).val, hR⟩ : Fin 8192) (⟨(i 2).val, hi2⟩ : Fin 4096))).val
      = (S4x2048x4096.rowMajor i).val
    rw [Shape.rowMajor_val_two, Shape.rowMajor_val_three]
    rfl
  · unfold Gmat G
    refine congrArg clip ?_
    show dot (Xk m c) (Sk m c) (Wk m c) ((i 0).val * 2048 + (i 1).val) (i 2).val = _
    unfold dot
    refine Finset.sum_congr rfl fun k _ => ?_
    unfold term
    rw [Xk_eq m c _ k.val hR k.isLt, Sk_eq m c k.val k.isLt]
    rfl

/-- The run of the kernel program: the result array ends at the specification of the arguments, with the
    weights the reference's dequantized weights, and the arguments end unchanged. -/
theorem run : θ_run defs (onTc (τ := τ) (main (F := Ideal))) ⟨m, fun _ => 0, ρ⟩ fun r => ∀ c : Dev nD,
      r.2.mem ((c.tc : Thread nD τ).loc main_v31)
        = G (m ((c : Thread nD τ).loc main_arg0)) (m ((c : Thread nD τ).loc main_arg3)) (Cert.ReferenceIdeal.Read.val_main_v30 (F := Ideal) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v31 (Pipeline.mem_restRefs_of main_v31 (by decide) (by decide))).trans
        ((result_eq m c).trans ((reshape_eq m c).trans (by rw [V_v28]))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Acc

end
-- ==== Proof.RefSide.lean ====
/-
  The reference computes the specification.

  The reference scales x by the broadcast scales, flattens the two leading axes, contracts the 4096 input
  features against the dequantized weights, restores the leading axes and clips. Read at (b, r, o): the
  reshapes send (b, r) to the flattened row b * 2048 + r and back, the broadcast reads the scale of column k,
  and the contraction is the plain sum over k of (x[b, r, k] * s[k]) * W[o, k]. The weights enter only as the
  value of their own stage of the program, which is left unopened.
-/
import proofs.«167404_j11579231830501_2_alg».proof.Proof.Gen.ReferenceIdeal.Read
import proofs.«167404_j11579231830501_2_alg».proof.Proof.Spec

noncomputable section

open Idealize.ShloMosaic Idealize.ShloMosaic.ValueIdx

namespace Cert.ReferenceIdeal.RefValue

open Cert.ReferenceIdeal Cert.ReferenceIdeal.Read Cert.AQSpec

/-- The reference's result is the specification of its arguments, with the weights its own weight stage. -/
theorem ref_eq (x0 : S4x2048x4096.Idx → EReal) (x1 : (⟨S4096x512x2, .i32⟩ : BufTy).Contents (Elt Ideal))
    (x2 : (⟨S2x256x8, .bf16⟩ : BufTy).Contents (Elt Ideal)) (x3 : S4096.Idx → EReal) :
    val_main_v33 (F := Ideal) x0 x1 x2 x3 = G x0 x3 (val_main_v30 (F := Ideal) x1 x2) := by
  funext i
  have hi0 : (i 0).val < 4 := (i 0).isLt
  have hi1 : (i 1).val < 2048 := (i 1).isLt
  have hi2 : (i 2).val < 4096 := (i 2).isLt
  rw [val_main_v33_apply, val_main_call0_v4_apply, val_main_call0_v3_apply, val_main_cst_4_apply,
    val_main_call0_v2_apply, val_main_call0_v1_apply, val_main_call0_v0_apply, val_main_cst_3_apply,
    val_main_v32_apply, val_main_v31_apply]
  unfold G clip dot
  show min hi (max lo (∑ k : Fin 4096, _)) = _
  refine congrArg (fun v => min hi (max lo v)) (Finset.sum_congr rfl fun k _ => ?_)
  have hk : k.val < 4096 := k.isLt
  rw [val_main_v3_apply, val_main_v2_apply, val_main_v1_apply, val_main_v0_apply]
  unfold term flatX
  have A0 : ((idx_main_v3 (lidx_main_v31 (idx_main_v32 i) k)) 0).val = ((i 0).val * 2048 + (i 1).val) / 2048 := by
    show ((((i 0).val * 2048 + (i 1).val) * 4096 + (i 2).val) / 4096 * 4096 + k.val) / 8388608 = _
    omega
  have A1 : ((idx_main_v3 (lidx_main_v31 (idx_main_v32 i) k)) 1).val = ((i 0).val * 2048 + (i 1).val) % 2048 := by
    show ((((i 0).val * 2048 + (i 1).val) * 4096 + (i 2).val) / 4096 * 4096 + k.val) / 4096 % 2048 = _
    omega
  have A2 : ((idx_main_v3 (lidx_main_v31 (idx_main_v32 i) k)) 2).val = k.val := by
    show ((((i 0).val * 2048 + (i 1).val) * 4096 + (i 2).val) / 4096 * 4096 + k.val) % 4096 = _
    omega
  have B0 : ((idx_main_v0 (idx_main_v1 (idx_main_v3 (lidx_main_v31 (idx_main_v32 i) k)))) 0).val = k.val := A2
  have C0 : ((ridx_main_v31 (idx_main_v32 i) k) 0).val = (i 2).val := by
    show (((i 0).val * 2048 + (i 1).val) * 4096 + (i 2).val) % 4096 = _
    omega
  have C1 : ((ridx_main_v31 (idx_main_v32 i) k) 1).val = k.val := rfl
  rw [ext3_of_eq x0 _ _ _ _ A0 A1 A2, ext1_of_eq x3 _ _ B0,
    ext2_of_eq (val_main_v30 (F := Ideal) x1 x2) _ _ _ C0 C1]
  rfl

end Cert.ReferenceIdeal.RefValue

end
-- ==== Proof.lean ====
/-
  The kernel and its reference compute the same clipped, scaled matrix product.

  Both programs dequantize the weights W from the two codebooks by the same operations, scale the
  activations x column by column by the scales s, contract the 4096 input features against W and clip the
  result to [-50, 50]: at (b, r, o) the value is clip(sum over k of (x[b, r, k] * s[k]) * W[o, k]). The
  reference contracts all 4096 features at once. The kernel tiles the flattened rows by 1024, the output
  columns by 2048 and the features by 512, accumulates the eight partial contractions of a tile in a scratch
  block that it zeroes at the first step, and stores the clipped accumulator at the last step. On the extended
  reals narrowing to bf16 is the identity and addition is commutative and associative with neutral zero, so the
  eight partial sums are the whole sum and the two results are equal entry by entry; the finiteness of the
  inputs is never used. The ideal pass rewrote nothing, so the idealized kernel is the kernel's own text.
-/
import proofs.«167404_j11579231830501_2_alg».proof.Defs
import proofs.«167404_j11579231830501_2_alg».proof.Proof.Gen.Kernel
import proofs.«167404_j11579231830501_2_alg».proof.Proof.Gen.Kernel.Frame
import proofs.«167404_j11579231830501_2_alg».proof.Proof.Gen.KernelIdeal
import proofs.«167404_j11579231830501_2_alg».proof.Proof.Gen.KernelIdeal.Frame
import proofs.«167404_j11579231830501_2_alg».proof.Proof.Gen.ReferenceIdeal
import proofs.«167404_j11579231830501_2_alg».proof.Proof.Gen.ReferenceIdeal.Run
import proofs.«167404_j11579231830501_2_alg».proof.Proof.Gen.ReferenceIdeal.Read
import proofs.«167404_j11579231830501_2_alg».proof.Proof.Gen.Pre_finite_inputs
import proofs.«167404_j11579231830501_2_alg».proof.Proof.Tail
import proofs.«167404_j11579231830501_2_alg».proof.Proof.RefSide
import Idealize.ShloMosaic.Adequacy
import Idealize.ShloMosaic.Init

noncomputable section

namespace Cert.Proof

open Idealize.ShloMosaic Idealize.SL.Sem

/-- The kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Both runs end with the result array at the specification of the same arguments. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v33_eq, Cert.ReferenceIdeal.RefValue.ref_eq,
    (hagree c).1, (hagree c).2.1, (hagree c).2.2.1, (hagree c).2.2.2]

/-- The five claims behind the witnesses of the programs' stated facts. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
